-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x2 .f32) (main_arg5 : FVec F S2 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S100000x2 : Shape := ⟨2, ![100000, 2]⟩
abbrev S5000x2 : Shape := ⟨2, ![5000, 2]⟩
abbrev S1x16 : Shape := ⟨2, ![1, 16]⟩
abbrev S1x2 : Shape := ⟨2, ![1, 2]⟩

abbrev nBuf : Space → Nat
  | .hbm => 63
  | .vmem => 12
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S100000x16, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x16, .f32⟩
  | .hbm, ⟨55, _⟩ => ⟨S3300000x1, .f32⟩
  | .hbm, ⟨56, _⟩ => ⟨S3300000x16, .f32⟩
  | .hbm, ⟨57, _⟩ => ⟨S3300000x16, .f32⟩
  | .hbm, ⟨58, _⟩ => ⟨S_, .f32⟩
  | .hbm, ⟨59, _⟩ => ⟨S100000x16, .f32⟩
  | .hbm, ⟨60, _⟩ => ⟨S3300000x1, .i32⟩
  | .hbm, ⟨61, _⟩ => ⟨S100000x16, .f32⟩
  | .hbm, ⟨62, _⟩ => ⟨S100000x2, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16, .f32⟩
  | .local _ .vmem, ⟨8, _⟩ => ⟨S16x2, .f32⟩
  | .local _ .vmem, ⟨9, _⟩ => ⟨S2, .f32⟩
  | .local _ .vmem, ⟨10, _⟩ => ⟨S5000x2, .f32⟩
  | .local _ .vmem, ⟨11, _⟩ => ⟨S5000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S5000x16_S5000x16 : S5000x16.ShapeCasts S5000x16
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S16x2_S16x2_0_0 : ∀ a, (![0, 0] : Fin 2 → Nat) a + S16x2.size a ≤ S16x2.size a
  h_S16x2 : 0 < S16x2.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x2_S5000x2_1_0_0_1_n_n_wf : DotDims.WF S5000x16 S16x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16.size a ≤ S16.size a
  hwx1_1 : ∀ i : grid1.Coords, EltTy.bits .f32 = 32 ∨ (Rect.block (s := S16) S16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x2.size a ≤ S16x2.size a
  hwx1_2 : ∀ i : grid1.Coords, EltTy.bits .f32 = 32 ∨ (Rect.block (s := S16x2) S16x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2.size a ≤ S2.size a
  hwx1_3 : ∀ i : grid1.Coords, EltTy.bits .f32 = 32 ∨ (Rect.block (s := S2) S2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x2.size a ≤ S100000x2.size a
  hwx1_4 : ∀ i : grid1.Coords, EltTy.bits .f32 = 32 ∨ (Rect.block (s := S100000x2) S5000x2.size (cc1_transform_4 i) (hinb1_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S5000x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x2 : Shape := ⟨2, ![100000, 2]⟩
abbrev S1x2 : Shape := ⟨2, ![1, 2]⟩

abbrev nBuf : Space → Nat
  | .hbm => 69
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S100000x16, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x16, .f32⟩
  | .hbm, ⟨55, _⟩ => ⟨S3300000x1, .f32⟩
  | .hbm, ⟨56, _⟩ => ⟨S3300000x16, .f32⟩
  | .hbm, ⟨57, _⟩ => ⟨S3300000x16, .f32⟩
  | .hbm, ⟨58, _⟩ => ⟨S_, .f32⟩
  | .hbm, ⟨59, _⟩ => ⟨S100000x16, .f32⟩
  | .hbm, ⟨60, _⟩ => ⟨S3300000x1, .i32⟩
  | .hbm, ⟨61, _⟩ => ⟨S100000x16, .f32⟩
  | .hbm, ⟨62, _⟩ => ⟨S1x16, .f32⟩
  | .hbm, ⟨63, _⟩ => ⟨S100000x16, .f32⟩
  | .hbm, ⟨64, _⟩ => ⟨S100000x16, .f32⟩
  | .hbm, ⟨65, _⟩ => ⟨S100000x2, .f32⟩
  | .hbm, ⟨66, _⟩ => ⟨S1x2, .f32⟩
  | .hbm, ⟨67, _⟩ => ⟨S100000x2, .f32⟩
  | .hbm, ⟨68, _⟩ => ⟨S100000x2, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf

class Facts : Prop extends Facts₀ where

variable [Facts]
-- ==== Proof.Spec.lean ====
/-
  What the two dense layers compute, written once with no program in sight.

  Over the extended reals (a float at the ideal instance), for a node feature array `X` of 100000 rows and 512 columns,
  weights `W1` (512 × 16), `W2` (16 × 2) and biases `b1` (16), `b2` (2):

    * `proj1 X W1` is the product `X · W1`: entry (r, h) is the sum over k < 512 of X(r, k) · W1(k, h);
    * `proj2 A b1 W2 b2` is `(A + b1) · W2 + b2` for an aggregated array `A` of 100000 rows and 16 columns: entry (r, o)
      is (the sum over k < 16 of (A(r, k) + b1(k)) · W2(k, o)) + b2(o), the bias `b1` added to every row before the
      product and `b2` after it.

  Both programs compute exactly these sums — a row-blocked kernel and a whole-array `dot_general` differ only in which
  rows are computed together — so no law of the extended reals beyond "the same terms are summed" is used, and no
  finiteness of the inputs. The indices are built coordinate by coordinate over the literal extents.
-/
import Idealize.ShloMosaic.PureOps.Ideal
import Idealize.ShloMosaic.Lib.ValueIdx

noncomputable section

open scoped BigOperators

namespace Cert.Gcn

open Idealize.ShloMosaic

abbrev SX : Shape := ⟨2, ![100000, 512]⟩
abbrev SW1 : Shape := ⟨2, ![512, 16]⟩
abbrev SH : Shape := ⟨2, ![100000, 16]⟩
abbrev SB1 : Shape := ⟨1, ![16]⟩
abbrev SW2 : Shape := ⟨2, ![16, 2]⟩
abbrev SB2 : Shape := ⟨1, ![2]⟩
abbrev SO : Shape := ⟨2, ![100000, 2]⟩

/-- Row `i 0` of the features, column `k`. -/
abbrev xAt (i : SH.Idx) (k : Fin 512) : SX.Idx := fun a => match a with
  | ⟨0, _⟩ => ⟨(i 0).val, (i 0).isLt⟩
  | ⟨1, _⟩ => ⟨k.val, k.isLt⟩
/-- Row `k` of the first weights, column `i 1`. -/
abbrev w1At (i : SH.Idx) (k : Fin 512) : SW1.Idx := fun a => match a with
  | ⟨0, _⟩ => ⟨k.val, k.isLt⟩
  | ⟨1, _⟩ => ⟨(i 1).val, (i 1).isLt⟩
/-- Row `i 0` of the aggregated array, column `k`. -/
abbrev aAt (i : SO.Idx) (k : Fin 16) : SH.Idx := fun a => match a with
  | ⟨0, _⟩ => ⟨(i 0).val, (i 0).isLt⟩
  | ⟨1, _⟩ => ⟨k.val, k.isLt⟩
/-- Row `k` of the second weights, column `i 1`. -/
abbrev w2At (i : SO.Idx) (k : Fin 16) : SW2.Idx := fun a => match a with
  | ⟨0, _⟩ => ⟨k.val, k.isLt⟩
  | ⟨1, _⟩ => ⟨(i 1).val, (i 1).isLt⟩
/-- Entry `k` of the first bias. -/
abbrev b1At (k : Fin 16) : SB1.Idx := fun a => match a with
  | ⟨0, _⟩ => ⟨k.val, k.isLt⟩
/-- Entry `i 1` of the second bias. -/
abbrev b2At (i : SO.Idx) : SB2.Idx := fun a => match a with
  | ⟨0, _⟩ => ⟨(i 1).val, (i 1).isLt⟩

/-- `X · W1`, entry by entry. -/
def proj1 (X : SX.Idx → EReal) (W : SW1.Idx → EReal) : SH.Idx → EReal :=
  fun i => ∑ k : Fin 512, X (xAt i k) * W (w1At i k)

/-- `(A + b1) · W2 + b2`, entry by entry. -/
def proj2 (A : SH.Idx → EReal) (b1 : SB1.Idx → EReal) (W : SW2.Idx → EReal) (b2 : SB2.Idx → EReal) : SO.Idx → EReal :=
  fun i => (∑ k : Fin 16, (A (aAt i k) + b1 (b1At k)) * W (w2At i k)) + b2 (b2At i)

end Cert.Gcn

end
-- ==== Proof.KernelRun.lean ====
/-
  The idealized kernel's run, with the whole final memory in the post.

  The program is two kernel regions among four stretches of host operations. Its run ends with every buffer the
  TensorCore holds outside the kernels' staging memory at the contents `Gen.W6`: the launch memory folded through the
  host stretches, each region's arrays replaced by what its write-backs leave. The generated frame certificate reads only
  the argument arrays off that final memory; here the same run is stated for ANY property of the final memory that
  follows from those contents, so that the result array can be read off it as well.
-/
import proofs.«152494_j86354612453593_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, in a memory of which `Q` holds — for any
    `Q` that follows from "every unscoped buffer of every core holds its contents under `Gen.W6`". -/
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := hQ)

/-- The same with the result array and the six argument arrays read off the final memory: the result holds what region
    1's write-backs leave in its output window's array, the arguments what they were launched with. -/
theorem run_result : θ_run defs (onTc (τ := τ) (main (F := F))) ⟨m, fun _ => 0, ρ⟩ (fun r => ∀ c : Dev nD,
      r.2.mem ((c.tc : Thread nD τ).loc main_v45) = W6 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_post m ρ (fun s h c =>
    ⟨h c _ (mem_uc main_v45 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩)

end Cert.KernelIdeal.Whole

end
-- ==== Proof.RefFolded.lean ====
/-
  The reference, folded: its result is `proj2 (mid (proj1 X W1) E) b1 W2 b2`.

  The reference's run ends with its result at one long term of the six arguments. That term has three parts:

    * the first product, a `dot_general` of the features and the first weights — at the ideal instance `proj1`, the
      plain sum over the 512 contracted positions;
    * a chain of host operations on that product and the edge list `E`: the edge list extended by one self-loop per
      node (`rowOf`, `colOf`: the sources and the targets), the degree of every target as a scatter-add of ones, its
      inverse square root where positive, the edge weight `normOf` as the product of the two ends' values, and the
      aggregation `mid` — the product's rows gathered at the sources, scaled by the edge weights and scatter-added at the
      targets. The kernel's program applies the very same operations, so the chain is carried as ONE function of the
      product and the edge list and is never opened;
    * the closing bias, product and bias (`tail`) — at the ideal instance `proj2`.

  The definitions below are the subterms of the run's own term, so folding the term into them is by definition.
-/
import proofs.«152494_j86354612453593_2_alg».proof.Proof.RefRunP
import proofs.«152494_j86354612453593_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Folded

open Cert.ReferenceIdeal Cert.ReferenceIdeal.Gen Cert.Gcn
open Idealize.ShloMosaic Idealize.ShloMosaic.TcCoe Idealize.SL.Sem Idealize.ShloMosaic.StableHlo Idealize.ShloMosaic.ValueIdx

variable {F : FTy → Type} [FloatOps F]

/-! ## The shared host chain, as functions -/

/-- The edges' sources, then one self-loop per node. -/
def rowOf (ei : IVec S2x3200000 32) : IVec S3300000 32 :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- The edges' targets, then one self-loop per node. -/
def colOf (ei : IVec S2x3200000 32) : IVec S3300000 32 :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- The weight of every edge: the inverse square root of the degree (where positive, else zero) at its source times the
    same at its target, the degree of a node being the number of edges that target it. -/
def normOf (ei : IVec S2x3200000 32) : FVec F S3300000 .f32 :=
  mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (colOf ei)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (colOf ei)) (broadcastInDim S3300000 ![] bcast_S_S3300000 (constant S_ .f32 0x3F800000#32)))) (broadcastInDim S100000 ![] bcast_S_S100000 (constant S_ .f32 0x00000000#32))) (broadcastInDim S3300000x1 ![0] bcast_S3300000_S3300000x1_0 (select (cmpi .slt (rowOf ei) (broadcastInDim S3300000 ![] bcast_S_S3300000 (constantI S_ 32 0#32))) (addi (rowOf ei) (broadcastInDim S3300000 ![] bcast_S_S3300000 (constantI S_ 32 100000#32))) (rowOf ei)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (colOf ei)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (colOf ei)) (broadcastInDim S3300000 ![] bcast_S_S3300000 (constant S_ .f32 0x3F800000#32)))) (broadcastInDim S100000 ![] bcast_S_S100000 (constant S_ .f32 0x00000000#32))) (broadcastInDim S3300000x1 ![0] bcast_S3300000_S3300000x1_0 (select (cmpi .slt (colOf ei) (broadcastInDim S3300000 ![] bcast_S_S3300000 (constantI S_ 32 0#32))) (addi (colOf ei) (broadcastInDim S3300000 ![] bcast_S_S3300000 (constantI S_ 32 100000#32))) (colOf ei))))

/-- The aggregation: the rows of `xw` gathered at the sources, scaled by the edge weights, scatter-added at the targets. -/
def mid (xw : FVec F S100000x16 .f32) (ei : IVec S2x3200000 32) : FVec F S100000x16 .f32 :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (colOf ei)) (mulf (Host.gather gather_S100000x16_S3300000x1_S3300000x16_1_0_n_n_0_1_116 xw (broadcastInDim S3300000x1 ![0] bcast_S3300000_S3300000x1_0 (select (cmpi .slt (rowOf ei) (broadcastInDim S3300000 ![] bcast_S_S3300000 (constantI S_ 32 0#32))) (addi (rowOf ei) (broadcastInDim S3300000 ![] bcast_S_S3300000 (constantI S_ 32 100000#32))) (rowOf ei)))) (broadcastInDim S3300000x16 ![0, 1] bcast_S3300000x1_S3300000x16_0_1 (broadcastInDim S3300000x1 ![0] bcast_S3300000_S3300000x1_0 (normOf (F := F) ei))))

/-- The closing operations: the first bias added to every row, the second product, the second bias added to every row. -/
def tail (A : FVec F S100000x16 .f32) (b1 : FVec F S16 .f32) (W2 : FVec F S16x2 .f32) (b2 : FVec F S2 .f32) : FVec F S100000x2 .f32 :=
  addf (Host.dotGeneral dot_S100000x16_S16x2_S100000x2_1_0_0_1_n_n none (addf A (broadcastInDim S100000x16 ![0, 1] bcast_S1x16_S100000x16_0_1 (broadcastInDim S1x16 ![1] bcast_S16_S1x16_1 b1))) W2) (broadcastInDim S100000x2 ![0, 1] bcast_S1x2_S100000x2_0_1 (broadcastInDim S1x2 ![1] bcast_S2_S1x2_1 b2))

set_option maxRecDepth 8192 in
/-- The run's term is the closing operations of the aggregation of the first product. -/
theorem res_folded (m : (ℓ : Loc nD τ sig) → Buf (Elt F) ℓ) (c : Dev nD) :
    Cert.ReferenceIdeal.ValueP.res_main_v51 m c
      = tail (mid (Host.dotGeneral dot_S100000x512_S512x16_S100000x16_1_0_0_1_n_n none (m ((c.tc : Thread nD τ).loc main_arg0)) (m ((c.tc : Thread nD τ).loc main_arg2)))
            (m ((c.tc : Thread nD τ).loc main_arg1)))
          (m ((c.tc : Thread nD τ).loc main_arg3)) (m ((c.tc : Thread nD τ).loc main_arg4)) (m ((c.tc : Thread nD τ).loc main_arg5)) := by
  unfold Cert.ReferenceIdeal.ValueP.res_main_v51; rfl

/-! ## The two products at the ideal instance -/

/-- The first product's left operand is read at the output's row … -/
theorem first_lhs_row (i : S100000x16.Idx) (q : dot_S100000x512_S512x16_S100000x16_1_0_0_1_n_n.contr.Idx) : (dot_S100000x512_S512x16_S100000x16_1_0_0_1_n_n.lhsIdx i q 0).val = (i 0).val := by
  unfold DotDims.lhsIdx
  rw [dif_neg (show ¬(0 : Fin S100000x512.rank) ∈ dot_S100000x512_S512x16_S100000x16_1_0_0_1_n_n.lhsBatch by decide), dif_pos (show (0 : Fin S100000x512.rank) ∈ dot_S100000x512_S512x16_S100000x16_1_0_0_1_n_n.lhsNonContracting by decide)]
  rfl
/-- … and at the contracted position; -/
theorem first_lhs_col (i : S100000x16.Idx) (q : dot_S100000x512_S512x16_S100000x16_1_0_0_1_n_n.contr.Idx) : (dot_S100000x512_S512x16_S100000x16_1_0_0_1_n_n.lhsIdx i q 1).val = (q ⟨0, by decide⟩).val :=
  dot_S100000x512_S512x16_S100000x16_1_0_0_1_n_n.lhsIdx_val_of_single rfl i q
/-- the right operand at the contracted position … -/
theorem first_rhs_row (i : S100000x16.Idx) (q : dot_S100000x512_S512x16_S100000x16_1_0_0_1_n_n.contr.Idx) : (dot_S100000x512_S512x16_S100000x16_1_0_0_1_n_n.rhsIdx i q 0).val = (q ⟨0, by decide⟩).val :=
  dot_S100000x512_S512x16_S100000x16_1_0_0_1_n_n.rhsIdx_val_of_single rfl i q
/-- … and at the output's column. -/
theorem first_rhs_col (i : S100000x16.Idx) (q : dot_S100000x512_S512x16_S100000x16_1_0_0_1_n_n.contr.Idx) : (dot_S100000x512_S512x16_S100000x16_1_0_0_1_n_n.rhsIdx i q 1).val = (i 1).val := by
  unfold DotDims.rhsIdx
  rw [dif_neg (show ¬(1 : Fin S512x16.rank) ∈ dot_S100000x512_S512x16_S100000x16_1_0_0_1_n_n.rhsBatch by decide), dif_pos (show (1 : Fin S512x16.rank) ∈ dot_S100000x512_S512x16_S100000x16_1_0_0_1_n_n.rhsNonContracting by decide)]
  rfl

/-- The first `dot_general` is `X · W1`. -/
theorem first_eq (X : FVec Ideal S100000x512 .f32) (W : FVec Ideal S512x16 .f32) :
    Host.dotGeneral (F := Ideal) dot_S100000x512_S512x16_S100000x16_1_0_0_1_n_n none X W = proj1 X W := by
  funext i
  simp only [Host.dotGeneral]
  rw [Ideal.dotGeneral_apply, ← Equiv.sum_comp (contrEquiv1 dot_S100000x512_S512x16_S100000x16_1_0_0_1_n_n 512 rfl rfl).symm]
  unfold proj1
  refine Finset.sum_congr rfl fun k _ => ?_
  have hk := contrEquiv1_symm_val dot_S100000x512_S512x16_S100000x16_1_0_0_1_n_n 512 rfl rfl k
  have el : dot_S100000x512_S512x16_S100000x16_1_0_0_1_n_n.lhsIdx i ((contrEquiv1 dot_S100000x512_S512x16_S100000x16_1_0_0_1_n_n 512 rfl rfl).symm k) = xAt i k := funext fun a => Fin.ext (by
    match a with
    | ⟨0, _⟩ => exact first_lhs_row _ _
    | ⟨1, _⟩ => exact (first_lhs_col _ _).trans hk)
  have er : dot_S100000x512_S512x16_S100000x16_1_0_0_1_n_n.rhsIdx i ((contrEquiv1 dot_S100000x512_S512x16_S100000x16_1_0_0_1_n_n 512 rfl rfl).symm k) = w1At i k := funext fun a => Fin.ext (by
    match a with
    | ⟨0, _⟩ => exact (first_rhs_row _ _).trans hk
    | ⟨1, _⟩ => exact first_rhs_col _ _)
  rw [el, er]

/-- The second product's left operand is read at the output's row … -/
theorem second_lhs_row (i : S100000x2.Idx) (q : dot_S100000x16_S16x2_S100000x2_1_0_0_1_n_n.contr.Idx) : (dot_S100000x16_S16x2_S100000x2_1_0_0_1_n_n.lhsIdx i q 0).val = (i 0).val := by
  unfold DotDims.lhsIdx
  rw [dif_neg (show ¬(0 : Fin S100000x16.rank) ∈ dot_S100000x16_S16x2_S100000x2_1_0_0_1_n_n.lhsBatch by decide), dif_pos (show (0 : Fin S100000x16.rank) ∈ dot_S100000x16_S16x2_S100000x2_1_0_0_1_n_n.lhsNonContracting by decide)]
  rfl
/-- … and at the contracted position; -/
theorem second_lhs_col (i : S100000x2.Idx) (q : dot_S100000x16_S16x2_S100000x2_1_0_0_1_n_n.contr.Idx) : (dot_S100000x16_S16x2_S100000x2_1_0_0_1_n_n.lhsIdx i q 1).val = (q ⟨0, by decide⟩).val :=
  dot_S100000x16_S16x2_S100000x2_1_0_0_1_n_n.lhsIdx_val_of_single rfl i q
/-- the right operand at the contracted position … -/
theorem second_rhs_row (i : S100000x2.Idx) (q : dot_S100000x16_S16x2_S100000x2_1_0_0_1_n_n.contr.Idx) : (dot_S100000x16_S16x2_S100000x2_1_0_0_1_n_n.rhsIdx i q 0).val = (q ⟨0, by decide⟩).val :=
  dot_S100000x16_S16x2_S100000x2_1_0_0_1_n_n.rhsIdx_val_of_single rfl i q
/-- … and at the output's column. -/
theorem second_rhs_col (i : S100000x2.Idx) (q : dot_S100000x16_S16x2_S100000x2_1_0_0_1_n_n.contr.Idx) : (dot_S100000x16_S16x2_S100000x2_1_0_0_1_n_n.rhsIdx i q 1).val = (i 1).val := by
  unfold DotDims.rhsIdx
  rw [dif_neg (show ¬(1 : Fin S16x2.rank) ∈ dot_S100000x16_S16x2_S100000x2_1_0_0_1_n_n.rhsBatch by decide), dif_pos (show (1 : Fin S16x2.rank) ∈ dot_S100000x16_S16x2_S100000x2_1_0_0_1_n_n.rhsNonContracting by decide)]
  rfl

/-- A bias of 16 read as one row and repeated down 100000 rows reads, at (r, k), the bias at k. -/
theorem bias1_at (b1 : FVec Ideal S16 .f32) (i : S100000x2.Idx) (k : Fin 16) :
    broadcastInDim S100000x16 ![0, 1] bcast_S1x16_S100000x16_0_1 (broadcastInDim S1x16 ![1] bcast_S16_S1x16_1 b1) (aAt i k) = b1 (b1At k) := by
  generalize hy : broadcastInDim S1x16 ![1] bcast_S16_S1x16_1 b1 = y
  refine (broadcastInDim_apply _ bcast_S1x16_S100000x16_0_1 y (aAt i k) (fun a => match a with
      | ⟨0, _⟩ => ⟨0, Nat.one_pos⟩
      | ⟨1, _⟩ => ⟨k.val, k.isLt⟩) (fun a => match a with
    | ⟨0, _⟩ => by show 0 = if (1 : Nat) = 1 then 0 else (i 0).val; rw [if_pos rfl]
    | ⟨1, _⟩ => by show k.val = if (16 : Nat) = 1 then 0 else k.val; rw [if_neg (by decide)])).trans ?_
  subst hy
  exact broadcastInDim_apply _ bcast_S16_S1x16_1 b1 _ (b1At k) (fun a => match a with
    | ⟨0, _⟩ => by show k.val = if (16 : Nat) = 1 then 0 else k.val; rw [if_neg (by decide)])

/-- A bias of 2 read as one row and repeated down 100000 rows reads, at (r, o), the bias at o. -/
theorem bias2_at (b2 : FVec Ideal S2 .f32) (i : S100000x2.Idx) :
    broadcastInDim S100000x2 ![0, 1] bcast_S1x2_S100000x2_0_1 (broadcastInDim S1x2 ![1] bcast_S2_S1x2_1 b2) i = b2 (b2At i) := by
  generalize hy : broadcastInDim S1x2 ![1] bcast_S2_S1x2_1 b2 = y
  refine (broadcastInDim_apply _ bcast_S1x2_S100000x2_0_1 y i (fun a => match a with
      | ⟨0, _⟩ => ⟨0, Nat.one_pos⟩
      | ⟨1, _⟩ => ⟨(i 1).val, (i 1).isLt⟩) (fun a => match a with
    | ⟨0, _⟩ => by show 0 = if (1 : Nat) = 1 then 0 else (i 0).val; rw [if_pos rfl]
    | ⟨1, _⟩ => by show (i 1).val = if (2 : Nat) = 1 then 0 else (i 1).val; rw [if_neg (by decide)])).trans ?_
  subst hy
  exact broadcastInDim_apply _ bcast_S2_S1x2_1 b2 _ (b2At i) (fun a => match a with
    | ⟨0, _⟩ => by show (i 1).val = if (2 : Nat) = 1 then 0 else (i 1).val; rw [if_neg (by decide)])

/-- The closing operations are `(A + b1) · W2 + b2`. -/
theorem tail_eq (A : FVec Ideal S100000x16 .f32) (b1 : FVec Ideal S16 .f32) (W2 : FVec Ideal S16x2 .f32) (b2 : FVec Ideal S2 .f32) :
    tail (F := Ideal) A b1 W2 b2 = proj2 A b1 W2 b2 := by
  funext i
  unfold tail
  rw [addf_apply, bias2_at]
  simp only [Host.dotGeneral]
  rw [Ideal.dotGeneral_apply, ← Equiv.sum_comp (contrEquiv1 dot_S100000x16_S16x2_S100000x2_1_0_0_1_n_n 16 rfl rfl).symm]
  unfold proj2
  congr 1
  refine Finset.sum_congr rfl fun k _ => ?_
  have hk := contrEquiv1_symm_val dot_S100000x16_S16x2_S100000x2_1_0_0_1_n_n 16 rfl rfl k
  have el : dot_S100000x16_S16x2_S100000x2_1_0_0_1_n_n.lhsIdx i ((contrEquiv1 dot_S100000x16_S16x2_S100000x2_1_0_0_1_n_n 16 rfl rfl).symm k) = aAt i k := funext fun a => Fin.ext (by
    match a with
    | ⟨0, _⟩ => exact second_lhs_row _ _
    | ⟨1, _⟩ => exact (second_lhs_col _ _).trans hk)
  have er : dot_S100000x16_S16x2_S100000x2_1_0_0_1_n_n.rhsIdx i ((contrEquiv1 dot_S100000x16_S16x2_S100000x2_1_0_0_1_n_n 16 rfl rfl).symm k) = w2At i k := funext fun a => Fin.ext (by
    match a with
    | ⟨0, _⟩ => exact (second_rhs_row _ _).trans hk
    | ⟨1, _⟩ => exact second_rhs_col _ _)
  rw [el, er, addf_apply, bias1_at]

/-! ## The reference's result -/

/-- At the ideal instance the reference's result is the spec's second layer of the aggregation of the spec's first. -/
theorem res_eq (m : (ℓ : Loc nD τ sig) → Buf (Elt Ideal) ℓ) (c : Dev nD) :
    Cert.ReferenceIdeal.ValueP.res_main_v51 (F := Ideal) m c
      = proj2 (mid (F := Ideal) (proj1 (m ((c.tc : Thread nD τ).loc main_arg0)) (m ((c.tc : Thread nD τ).loc main_arg2)))
            (m ((c.tc : Thread nD τ).loc main_arg1)))
          (m ((c.tc : Thread nD τ).loc main_arg3)) (m ((c.tc : Thread nD τ).loc main_arg4)) (m ((c.tc : Thread nD τ).loc main_arg5)) := by
  rw [res_folded, tail_eq, first_eq]

end Cert.ReferenceIdeal.Folded

end
-- ==== Proof.Layer1.lean ====
/-
  Region 0 (the first dense layer): its output array after the run is `X · W1`.

  The region's grid has 20 points. Point `t` loads rows 5000·t … 5000·t + 4999 of the features (all 512 columns) and
  the whole weight array, multiplies them into a zero accumulator and stores the 5000 × 16 product as block `t` of the
  output. At the ideal instance a product into a zero accumulator, read at an entry, is the plain sum over the
  contracted axis; row `r` of block `t` is row 5000·t + r of the array, and the 20 blocks tile the 100000 rows. So the
  array ends holding `proj1` of the features and weights as the region finds them — stated here at ANY contents `V` of
  the buffers at the region's entry.
-/
import proofs.«152494_j86354612453593_2_alg».proof.Proof.Gen.KernelIdeal.Frame
import proofs.«152494_j86354612453593_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer1

open Cert.KernelIdeal Cert.KernelIdeal.Gen Cert.Gcn
open Idealize.ShloMosaic Idealize.ShloMosaic.TcCoe Idealize.SL.Sem Idealize.ShloMosaic.ValueIdx
open Idealize.ShloMosaic.Pipeline (Dat Cfg Window)

/-! ## One block's product at an entry -/

/-- Row `y 0` of a feature block, column `k`. -/
abbrev xb (y : S5000x16.Idx) (k : Fin 512) : S5000x512.Idx := fun a => match a with
  | ⟨0, _⟩ => ⟨(y 0).val, (y 0).isLt⟩
  | ⟨1, _⟩ => ⟨k.val, k.isLt⟩
/-- Row `k` of the weights, column `y 1`. -/
abbrev wb (y : S5000x16.Idx) (k : Fin 512) : S512x16.Idx := fun a => match a with
  | ⟨0, _⟩ => ⟨k.val, k.isLt⟩
  | ⟨1, _⟩ => ⟨(y 1).val, (y 1).isLt⟩

/-- The product's left operand is read at the output's row … -/
theorem lhs_row (y : S5000x16.Idx) (q : dot_S5000x512_S512x16_S5000x16_1_0_0_1_n_n.contr.Idx) :
    (dot_S5000x512_S512x16_S5000x16_1_0_0_1_n_n.lhsIdx y q 0).val = (y 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
/-- … and at the contracted position; -/
theorem lhs_col (y : S5000x16.Idx) (q : dot_S5000x512_S512x16_S5000x16_1_0_0_1_n_n.contr.Idx) :
    (dot_S5000x512_S512x16_S5000x16_1_0_0_1_n_n.lhsIdx y q 1).val = (q ⟨0, by decide⟩).val :=
  dot_S5000x512_S512x16_S5000x16_1_0_0_1_n_n.lhsIdx_val_of_single rfl y q
/-- the right operand at the contracted position … -/
theorem rhs_row (y : S5000x16.Idx) (q : dot_S5000x512_S512x16_S5000x16_1_0_0_1_n_n.contr.Idx) :
    (dot_S5000x512_S512x16_S5000x16_1_0_0_1_n_n.rhsIdx y q 0).val = (q ⟨0, by decide⟩).val :=
  dot_S5000x512_S512x16_S5000x16_1_0_0_1_n_n.rhsIdx_val_of_single rfl y q
/-- … and at the output's column. -/
theorem rhs_col (y : S5000x16.Idx) (q : dot_S5000x512_S512x16_S5000x16_1_0_0_1_n_n.contr.Idx) :
    (dot_S5000x512_S512x16_S5000x16_1_0_0_1_n_n.rhsIdx y q 1).val = (y 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-- What the body stores, at entry `y` of the block: the sum over the 512 contracted positions of the feature block's
    row times the weights' column. -/
theorem pay_at (x0 : Vec Ideal S5000x512 .f32) (x1 : Vec Ideal S512x16 .f32) (y : S5000x16.Idx) :
    k0_pay1 (F := Ideal) x0 x1 y = ∑ k : Fin 512, x0 (xb y k) * x1 (wb y k) := by
  unfold k0_pay1
  simp only [matmul]
  rw [Ideal.matmul_constant_zero_apply, ← Equiv.sum_comp (contrEquiv1 dot_S5000x512_S512x16_S5000x16_1_0_0_1_n_n 512 rfl rfl).symm]
  refine Finset.sum_congr rfl fun k _ => ?_
  have hk := contrEquiv1_symm_val dot_S5000x512_S512x16_S5000x16_1_0_0_1_n_n 512 rfl rfl k
  have el : dot_S5000x512_S512x16_S5000x16_1_0_0_1_n_n.lhsIdx y ((contrEquiv1 dot_S5000x512_S512x16_S5000x16_1_0_0_1_n_n 512 rfl rfl).symm k) = xb y k := funext fun a => Fin.ext (by
    match a with
    | ⟨0, _⟩ => exact lhs_row _ _
    | ⟨1, _⟩ => exact (lhs_col _ _).trans hk)
  have er : dot_S5000x512_S512x16_S5000x16_1_0_0_1_n_n.rhsIdx y ((contrEquiv1 dot_S5000x512_S512x16_S5000x16_1_0_0_1_n_n 512 rfl rfl).symm k) = wb y k := funext fun a => Fin.ext (by
    match a with
    | ⟨0, _⟩ => exact (rhs_row _ _).trans hk
    | ⟨1, _⟩ => exact rhs_col _ _)
  rw [el, er]

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the feature window and the output window sit at block row `t`, block column
    0; the weight window at block (0, 0). -/
theorem maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `X · W1`. -/
theorem flushed_eq (c : Dev nD) (t : Fin cfg0.N) :
    (dat0 V c).flushed 2 t = ((cfg0.win 2).blk t).view.read (Elt Ideal) (proj1 (V c main_arg0) (V c main_arg2)) := by
  show (cfg0.win 2).cut (grid0.coords t) ((dat0 V c).after 2 t) = _
  rw [after0_2]
  unfold out0_2
  rw [View.canon_unit_zero origin]
  simp only [View.ld_unit_zero (S := S5000x512) origin, View.ld_unit_zero (S := S512x16) origin]
  obtain ⟨e0, e1, e2, e3, e4, e5⟩ := maps t
  funext j
  refine (pay_at _ _ j).trans ?_
  show _ = proj1 (V c main_arg0) (V c main_arg2) (((cfg0.win 2).blk t).view.emb j)
  unfold proj1
  refine Finset.sum_congr rfl fun k _ => ?_
  have hx : iblk0 V c 0 t (xb j k) = V c main_arg0 (xAt (((cfg0.win 2).blk t).view.emb j) k) := by
    show V c main_arg0 (((cfg0.win 0).blk t).view.emb (xb j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 512 + 1 * k.val = k.val; omega
  have hw : iblk0 V c 1 t (wb j k) = V c main_arg2 (w1At (((cfg0.win 2).blk t).view.emb j) k) := by
    show V c main_arg2 (((cfg0.win 1).blk t).view.emb (wb j k)) = _
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 16 + 1 * (j 1).val = win0_2.index t (1 : Fin 2) * 16 + 1 * (j 1).val; omega
  rw [hx, hw]

/-- An entry of the array lies in point `t`'s block iff its row is among the block's 5000 and its column among the 16. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v31).slice (win0_2.rect t)).set ↔ _
  rw [View.set_slice_whole, Rect.mem_set_unit]
  exact Iff.rfl

/-- Every entry is in some point's block: row `r` in the block of point `r / 5000`. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 20 := N_0
  have ht : (i 0).val / 5000 < grid0.N := by omega
  refine ⟨⟨(i 0).val / 5000, ht⟩, flush0_2 _, ?_⟩
  rw [mem_blk]
  obtain ⟨e0, e1, e2, e3, e4, e5⟩ := maps ⟨(i 0).val / 5000, ht⟩
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 16 ≤ (i 1).val ∧ (i 1).val < win0_2.index ⟨(i 0).val / 5000, ht⟩ (1 : Fin 2) * 16 + 16
    rw [e5]; omega

/-- The output array after the region is `X · W1` of the features and weights the region was entered with. -/
theorem final (c : Dev nD) : (dat0 V c).arrAt 2 cfg0.N = proj1 (V c main_arg0) (V c main_arg2) :=
  (dat0 V c).arrAt_eq_of_cover 2 (proj1 (V c main_arg0) (V c main_arg2)) (fun t _ => flushed_eq V c t) cover

end Cert.KernelIdeal.Layer1

end
-- ==== Proof.Layer2.lean ====
/-
  Region 1 (bias, second dense layer, bias): its output array after the run is `(A + b1) · W2 + b2`.

  The region's grid has 20 points. Point `t` loads rows 5000·t … 5000·t + 4999 of the aggregated array `A` (16 columns)
  and the whole of `b1`, `W2`, `b2`; it adds `b1` to every row (a vector of 16 read as one row and repeated down the
  block), multiplies by `W2` into a zero accumulator, adds `b2` to every row of the 5000 × 2 product, and stores that as
  block `t` of the output. At the ideal instance the product read at an entry is the plain sum over the 16 contracted
  positions, so entry (r, o) of the block is (Σ_k (A(5000·t + r, k) + b1(k)) · W2(k, o)) + b2(o), which is entry
  (5000·t + r, o) of `proj2`; the 20 blocks tile the 100000 rows. Stated at ANY contents `V` of the buffers at the
  region's entry.
-/
import proofs.«152494_j86354612453593_2_alg».proof.Proof.Gen.KernelIdeal.Frame
import proofs.«152494_j86354612453593_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer2

open Cert.KernelIdeal Cert.KernelIdeal.Gen Cert.Gcn
open Idealize.ShloMosaic Idealize.ShloMosaic.TcCoe Idealize.SL.Sem Idealize.ShloMosaic.ValueIdx
open Idealize.ShloMosaic.Pipeline (Dat Cfg Window)

/-! ## One block's result at an entry -/

/-- The product's left operand is read at the output's row … -/
theorem lhs_row (y : S5000x2.Idx) (q : dot_S5000x16_S16x2_S5000x2_1_0_0_1_n_n.contr.Idx) :
    (dot_S5000x16_S16x2_S5000x2_1_0_0_1_n_n.lhsIdx y q 0).val = (y 0).val := by
  unfold DotDims.lhsIdx
  rw [dif_neg (show ¬(0 : Fin S5000x16.rank) ∈ dot_S5000x16_S16x2_S5000x2_1_0_0_1_n_n.lhsBatch by decide), dif_pos (show (0 : Fin S5000x16.rank) ∈ dot_S5000x16_S16x2_S5000x2_1_0_0_1_n_n.lhsNonContracting by decide)]
  rfl
/-- … and at the contracted position; -/
theorem lhs_col (y : S5000x2.Idx) (q : dot_S5000x16_S16x2_S5000x2_1_0_0_1_n_n.contr.Idx) :
    (dot_S5000x16_S16x2_S5000x2_1_0_0_1_n_n.lhsIdx y q 1).val = (q ⟨0, by decide⟩).val :=
  dot_S5000x16_S16x2_S5000x2_1_0_0_1_n_n.lhsIdx_val_of_single rfl y q
/-- the right operand at the contracted position … -/
theorem rhs_row (y : S5000x2.Idx) (q : dot_S5000x16_S16x2_S5000x2_1_0_0_1_n_n.contr.Idx) :
    (dot_S5000x16_S16x2_S5000x2_1_0_0_1_n_n.rhsIdx y q 0).val = (q ⟨0, by decide⟩).val :=
  dot_S5000x16_S16x2_S5000x2_1_0_0_1_n_n.rhsIdx_val_of_single rfl y q
/-- … and at the output's column. -/
theorem rhs_col (y : S5000x2.Idx) (q : dot_S5000x16_S16x2_S5000x2_1_0_0_1_n_n.contr.Idx) :
    (dot_S5000x16_S16x2_S5000x2_1_0_0_1_n_n.rhsIdx y q 1).val = (y 1).val := by
  unfold DotDims.rhsIdx
  rw [dif_neg (show ¬(1 : Fin S16x2.rank) ∈ dot_S5000x16_S16x2_S5000x2_1_0_0_1_n_n.rhsBatch by decide), dif_pos (show (1 : Fin S16x2.rank) ∈ dot_S5000x16_S16x2_S5000x2_1_0_0_1_n_n.rhsNonContracting by decide)]
  rfl

/-- What the body stores, at entry (p, q) of the block: the biased row of the aggregated block times the weights'
    column, summed over the 16 contracted positions, plus the second bias at the column. -/
theorem pay_at (x0 : Vec Ideal S5000x16 .f32) (x1 : Vec Ideal S16 .f32) (x2 : Vec Ideal S16x2 .f32) (x3 : Vec Ideal S2 .f32)
    (p : Fin 5000) (q : Fin 2) :
    k1_pay1 (F := Ideal) x0 x1 x2 x3 (ix2 p q)
      = (∑ k : Fin 16, (x0 (ix2 p k) + x1 (ix1 k)) * x2 (ix2 k q)) + x3 (ix1 q) := by
  unfold k1_pay1
  simp only [matmul]
  rw [addf_apply, Ideal.matmul_constant_zero_apply, ← Equiv.sum_comp (contrEquiv1 dot_S5000x16_S16x2_S5000x2_1_0_0_1_n_n 16 rfl rfl).symm]
  congr 1
  · refine Finset.sum_congr rfl fun k _ => ?_
    have hk := contrEquiv1_symm_val dot_S5000x16_S16x2_S5000x2_1_0_0_1_n_n 16 rfl rfl k
    have el : dot_S5000x16_S16x2_S5000x2_1_0_0_1_n_n.lhsIdx (ix2 p q) ((contrEquiv1 dot_S5000x16_S16x2_S5000x2_1_0_0_1_n_n 16 rfl rfl).symm k) = ix2 p k := funext fun a => Fin.ext (by
      match a with
      | ⟨0, _⟩ => exact lhs_row _ _
      | ⟨1, _⟩ => exact (lhs_col _ _).trans hk)
    have er : dot_S5000x16_S16x2_S5000x2_1_0_0_1_n_n.rhsIdx (ix2 p q) ((contrEquiv1 dot_S5000x16_S16x2_S5000x2_1_0_0_1_n_n 16 rfl rfl).symm k) = ix2 k q := funext fun a => Fin.ext (by
      match a with
      | ⟨0, _⟩ => exact (rhs_row _ _).trans hk
      | ⟨1, _⟩ => exact rhs_col _ _)
    rw [el, er, addf_apply, shapeCast_self, broadcastTo_1b_ab_apply, shapeCast_a_1a_apply]
  · rw [broadcastTo_1b_ab_apply, shapeCast_a_1a_apply]

/-! ## From the blocks to the array -/

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- The printed index maps over the grid: the aggregated window and the output window sit at block row `t`, block
    column 0; the two biases and the weights at their one block. -/
theorem maps : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What point `t` writes back is block `t` of `(A + b1) · W2 + b2`. -/
theorem flushed_eq (c : Dev nD) (t : Fin cfg1.N) :
    (dat1 V c).flushed 4 t = ((cfg1.win 4).blk t).view.read (Elt Ideal)
      (proj2 (V c main_v44) (V c main_arg3) (V c main_arg4) (V c main_arg5)) := by
  show (cfg1.win 4).cut (grid1.coords t) ((dat1 V c).after 4 t) = _
  rw [after1_4]
  unfold out1_4
  rw [View.canon_unit_zero origin2]
  simp only [View.ld_unit_zero (S := S5000x16) origin2, View.ld_unit_zero (S := S16) origin1,
    View.ld_unit_zero (S := S16x2) origin2, View.ld_unit_zero (S := S2) origin1]
  obtain ⟨e0, e1, e2, e3, e4, e5, e6, e7⟩ := maps t
  funext j
  obtain ⟨p, q, rfl⟩ : ∃ (p : Fin 5000) (q : Fin 2), j = ix2 p q := ⟨j 0, j 1, eq_ix2 j⟩
  refine (pay_at _ _ _ _ p q).trans ?_
  show _ = proj2 (V c main_v44) (V c main_arg3) (V c main_arg4) (V c main_arg5) (((cfg1.win 4).blk t).view.emb (ix2 p q))
  unfold proj2
  have hb2 : iblk1 V c 3 t (ix1 q) = V c main_arg5 (b2At (((cfg1.win 4).blk t).view.emb (ix2 p q))) := by
    show V c main_arg5 (((cfg1.win 3).blk t).view.emb (ix1 q)) = _
    refine congrArg (V c main_arg5) (funext fun a => Fin.ext ?_)
    match a with
    | ⟨0, _⟩ => show win1_3.index t (0 : Fin 1) * 2 + 1 * q.val = win1_4.index t (1 : Fin 2) * 2 + 1 * q.val; omega
  rw [hb2]
  congr 1
  refine Finset.sum_congr rfl fun k _ => ?_
  have ha : iblk1 V c 0 t (ix2 p k) = V c main_v44 (aAt (((cfg1.win 4).blk t).view.emb (ix2 p q)) k) := by
    show V c main_v44 (((cfg1.win 0).blk t).view.emb (ix2 p k)) = _
    refine congrArg (V c main_v44) (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 16 + 1 * k.val = k.val; omega
  have hb1 : iblk1 V c 1 t (ix1 k) = V c main_arg3 (b1At k) := by
    show V c main_arg3 (((cfg1.win 1).blk t).view.emb (ix1 k)) = _
    refine congrArg (V c main_arg3) (funext fun a => Fin.ext ?_)
    match a with
    | ⟨0, _⟩ => show win1_1.index t (0 : Fin 1) * 16 + 1 * k.val = k.val; omega
  have hw : iblk1 V c 2 t (ix2 k q) = V c main_arg4 (w2At (((cfg1.win 4).blk t).view.emb (ix2 p q)) k) := by
    show V c main_arg4 (((cfg1.win 2).blk t).view.emb (ix2 k q)) = _
    refine congrArg (V c main_arg4) (funext fun a => Fin.ext ?_)
    match a with
    | ⟨0, _⟩ => show win1_2.index t (0 : Fin 2) * 16 + 1 * k.val = k.val; omega
    | ⟨1, _⟩ => show win1_2.index t (1 : Fin 2) * 2 + 1 * q.val = win1_4.index t (1 : Fin 2) * 2 + 1 * q.val; omega
  rw [ha, hb1, hw]

/-- An entry of the array lies in point `t`'s block iff its row is among the block's 5000 and its column among the 2. -/
theorem mem_blk (t : Fin cfg1.N) (i : S100000x2.Idx) :
    i ∈ ((cfg1.win 4).blk t).view.set ↔ ∀ a : Fin 2, win1_4.index t a * S5000x2.size a ≤ (i a).val ∧ (i a).val < win1_4.index t a * S5000x2.size a + S5000x2.size a := by
  show i ∈ ((View.whole main_v45).slice (win1_4.rect t)).set ↔ _
  rw [View.set_slice_whole, Rect.mem_set_unit]
  exact Iff.rfl

/-- Every entry is in some point's block: row `r` in the block of point `r / 5000`. -/
theorem cover (i : S100000x2.Idx) : ∃ t : Fin cfg1.N, (cfg1.win 4).flush t = true ∧ i ∈ ((cfg1.win 4).blk t).view.set := by
  have hi0 : (i 0).val < 100000 := (i 0).isLt
  have hi1 : (i 1).val < 2 := (i 1).isLt
  have hN : grid1.N = 20 := N_1
  have ht : (i 0).val / 5000 < grid1.N := by omega
  refine ⟨⟨(i 0).val / 5000, ht⟩, flush1_4 _, ?_⟩
  rw [mem_blk]
  obtain ⟨e0, e1, e2, e3, e4, e5, e6, e7⟩ := maps ⟨(i 0).val / 5000, ht⟩
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_4.index ⟨(i 0).val / 5000, ht⟩ (1 : Fin 2) * 2 ≤ (i 1).val ∧ (i 1).val < win1_4.index ⟨(i 0).val / 5000, ht⟩ (1 : Fin 2) * 2 + 2
    rw [e7]; omega

/-- The output array after the region is `(A + b1) · W2 + b2` of the arrays the region was entered with. -/
theorem final (c : Dev nD) :
    (dat1 V c).arrAt 4 cfg1.N = proj2 (V c main_v44) (V c main_arg3) (V c main_arg4) (V c main_arg5) :=
  (dat1 V c).arrAt_eq_of_cover 4 (proj2 (V c main_v44) (V c main_arg3) (V c main_arg4) (V c main_arg5))
    (fun t _ => flushed_eq V c t) cover

end Cert.KernelIdeal.Layer2

end
-- ==== Proof.KernelResult.lean ====
/-
  The idealized kernel's result array, as a function of its arguments.

  Between the launch and region 0 the program computes, from the edge list alone, the edges' sources and targets with
  the self-loops appended and the edge weights; region 0 leaves `X · W1` in its output array; the stretch between the
  regions gathers, scales and scatter-adds that array into the aggregation; region 1 leaves `(A + b1) · W2 + b2` of the
  aggregation `A`. Each host stretch is read as the composition of its operations (no operation writes an argument
  array, and none of the second stretch writes what the first computed), and that composition is recognised as the
  reference's own chain `mid`, `rowOf`, `colOf`, `normOf` — the same operations with the same literals — without
  opening it.
-/
import proofs.«152494_j86354612453593_2_alg».proof.Proof.Gen.KernelIdeal.Frame
import proofs.«152494_j86354612453593_2_alg».proof.Proof.RefFolded
import proofs.«152494_j86354612453593_2_alg».proof.Proof.Layer1
import proofs.«152494_j86354612453593_2_alg».proof.Proof.Layer2
import Idealize.ShloMosaic.Lib.StableHlo.Run

set_option maxRecDepth 16384

noncomputable section

namespace Cert.KernelIdeal.Result

open Cert.KernelIdeal Cert.KernelIdeal.Gen Cert.Gcn
open Idealize.ShloMosaic Idealize.ShloMosaic.TcCoe Idealize.SL.Sem Idealize.ShloMosaic.StableHlo
open Cert.ReferenceIdeal.Folded (rowOf colOf normOf mid)

variable {F : FTy → Type} [FloatOps F]
variable (m : (ℓ : Loc nD τ sig) → Buf (Elt F) ℓ) (ρ : Dev nD → PrngReg)

/-! ## What region 0 finds -/

/-- The edges' sources with the self-loops, as region 0 finds them. -/
theorem finds_row (c : Dev nD) :
    W3 m ρ c (Proc.devRef .tc main_v3) = rowOf (m ((c : Thread nD τ).loc main_arg1)) := by
  show StableHlo.after hostOps0_2 (StableHlo.after hostOps0_1 (StableHlo.after hostOps0 (W0 m ρ c))) (Proc.devRef .tc main_v3) = _
  after_results_simp <;> rfl
/-- The edges' targets with the self-loops, as region 0 finds them. -/
theorem finds_col (c : Dev nD) :
    W3 m ρ c (Proc.devRef .tc main_v6) = colOf (m ((c : Thread nD τ).loc main_arg1)) := by
  show StableHlo.after hostOps0_2 (StableHlo.after hostOps0_1 (StableHlo.after hostOps0 (W0 m ρ c))) (Proc.devRef .tc main_v6) = _
  after_results_simp <;> rfl
set_option maxHeartbeats 4000000 in
/-- The edge weights, as region 0 finds them. -/
theorem finds_norm (c : Dev nD) :
    W3 m ρ c (Proc.devRef .tc main_v30) = normOf (F := F) (m ((c : Thread nD τ).loc main_arg1)) := by
  show StableHlo.after hostOps0_2 (StableHlo.after hostOps0_1 (StableHlo.after hostOps0 (W0 m ρ c))) (Proc.devRef .tc main_v30) = _
  after_results_simp <;> rfl
/-- The features and the first weights are as launched. -/
theorem first_finds_arg0 (c : Dev nD) :
    W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem first_finds_arg2 (c : Dev nD) :
    W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

/-! ## What region 1 finds -/

/-- Region 0 writes only its output array; a buffer that is none of its arrays is as region 0 found it. -/
theorem second_finds_of_first (c : Dev nD) (b : Ref sig .tc) (hb : ∀ w, Pipeline.arrRef spec0 w ≠ b)
    (hops : StableHlo.after hostOps1 (W4 m ρ c) (Proc.devRef .tc b) = W4 m ρ c (Proc.devRef .tc b)) :
    W5 m ρ c (Proc.devRef .tc b) = W3 m ρ c (Proc.devRef .tc b) :=
  hops.trans (W4_of_ne m ρ c b hb)

theorem second_finds_arg3 (c : Dev nD) :
    W5 m ρ c (Proc.devRef .tc main_arg3) = m ((c : Thread nD τ).loc main_arg3) := by
  refine (second_finds_of_first m ρ c main_arg3 (by decide) ?_).trans ?_
  · after_results_simp <;> rfl
  show StableHlo.after hostOps0_2 (StableHlo.after hostOps0_1 (StableHlo.after hostOps0 (W0 m ρ c))) (Proc.devRef .tc main_arg3) = _
  after_results_simp <;> rfl
theorem second_finds_arg4 (c : Dev nD) :
    W5 m ρ c (Proc.devRef .tc main_arg4) = m ((c : Thread nD τ).loc main_arg4) := by
  refine (second_finds_of_first m ρ c main_arg4 (by decide) ?_).trans ?_
  · after_results_simp <;> rfl
  show StableHlo.after hostOps0_2 (StableHlo.after hostOps0_1 (StableHlo.after hostOps0 (W0 m ρ c))) (Proc.devRef .tc main_arg4) = _
  after_results_simp <;> rfl
theorem second_finds_arg5 (c : Dev nD) :
    W5 m ρ c (Proc.devRef .tc main_arg5) = m ((c : Thread nD τ).loc main_arg5) := by
  refine (second_finds_of_first m ρ c main_arg5 (by decide) ?_).trans ?_
  · after_results_simp <;> rfl
  show StableHlo.after hostOps0_2 (StableHlo.after hostOps0_1 (StableHlo.after hostOps0 (W0 m ρ c))) (Proc.devRef .tc main_arg5) = _
  after_results_simp <;> rfl

/-- The aggregation, as region 1 finds it: the reference's chain applied to region 0's output array and the edge list. -/
theorem finds_agg (c : Dev nD) :
    W5 m ρ c (Proc.devRef .tc main_v44)
      = mid (F := F) (W4 m ρ c (Proc.devRef .tc main_v31)) (m ((c : Thread nD τ).loc main_arg1)) := by
  show StableHlo.after hostOps1 (W4 m ρ c) (Proc.devRef .tc main_v44) = _
  after_results_simp
  rw [W4_of_ne m ρ c main_v3 (by decide), W4_of_ne m ρ c main_v6 (by decide), W4_of_ne m ρ c main_v30 (by decide),
    finds_row, finds_col, finds_norm]
  rfl

/-! ## The result -/

/-- The result array at the end of the run: the second layer of the aggregation of the first layer, of the arguments
    as launched. -/
theorem result_eq (m : (ℓ : Loc nD τ sig) → Buf (Elt Ideal) ℓ) (ρ : Dev nD → PrngReg) (c : Dev nD) :
    W6 m ρ c (Proc.devRef .tc main_v45)
      = proj2 (mid (F := Ideal) (proj1 (m ((c : Thread nD τ).loc main_arg0)) (m ((c : Thread nD τ).loc main_arg2)))
            (m ((c : Thread nD τ).loc main_arg1)))
          (m ((c : Thread nD τ).loc main_arg3)) (m ((c : Thread nD τ).loc main_arg4)) (m ((c : Thread nD τ).loc main_arg5)) := by
  have h1 : W6 m ρ c (Proc.devRef .tc main_v45) = (dat1 (V5 m ρ) c).arrAt 4 cfg1.N := W6_arr m ρ c 4
  have h0 : W4 m ρ c (Proc.devRef .tc main_v31) = (dat0 (V3 m ρ) c).arrAt 2 cfg0.N := W4_arr m ρ c 2
  rw [h1, Layer2.final (V5 m ρ) c]
  show proj2 (W5 m ρ c (Proc.devRef .tc main_v44)) (W5 m ρ c (Proc.devRef .tc main_arg3)) (W5 m ρ c (Proc.devRef .tc main_arg4))
      (W5 m ρ c (Proc.devRef .tc main_arg5)) = _
  rw [finds_agg, second_finds_arg3, second_finds_arg4, second_finds_arg5, h0, Layer1.final (V3 m ρ) c]
  show proj2 (mid (F := Ideal) (proj1 (W3 m ρ c (Proc.devRef .tc main_arg0)) (W3 m ρ c (Proc.devRef .tc main_arg2))) _) _ _ _ = _
  rw [first_finds_arg0, first_finds_arg2]

end Cert.KernelIdeal.Result

end
-- ==== Proof.lean ====
/-
  A two-layer graph convolution on 100000 nodes and 3200000 edges, as a row-blocked kernel and as plain array code.

  Both programs extend the edge list by one self-loop per node, count the edges into every node (the degree), take its
  inverse square root, and weight every edge by the product of that value at its two ends. Both multiply the node
  features `X` (512 columns) by `W1` (16 columns), gather the product's rows at the edges' sources, scale them by the
  edge weights and add them up at the edges' targets; and both finish with `(A + b1) · W2 + b2` on the aggregated
  array `A`. They differ in two places only: the kernel computes `X · W1`, and the closing `(A + b1) · W2 + b2`, 5000
  rows at a time in two kernel regions, each a product into a zero accumulator, where the reference uses one
  `dot_general` over all 100000 rows.

  Over the extended reals a product into a zero accumulator and a `dot_general` are the same sum over the contracted
  axis, entry by entry, and a row of a block is a row of the array; the 20 blocks of each region tile the rows. So the
  two programs' results are one function of the arguments, `proj2 (mid (proj1 X W1) E) b1 W2 b2`:
  `Cert.Gcn.proj1`, `proj2` are the two dense layers as sums, and `mid` is the shared chain of host operations, which
  is never opened. The terms summed are the same on both sides, in the same grouping, so no law of the extended reals
  is used beyond that, and the precondition (finite inputs) is not needed for the equality.

  The idealization rewrote no operation, so there is nothing to preserve beyond the program's own text.
-/
import proofs.«152494_j86354612453593_2_alg».proof.Defs
import proofs.«152494_j86354612453593_2_alg».proof.Proof.Gen.Kernel
import proofs.«152494_j86354612453593_2_alg».proof.Proof.Gen.Kernel.Skeleton
import proofs.«152494_j86354612453593_2_alg».proof.Proof.Gen.Kernel.Launch
import proofs.«152494_j86354612453593_2_alg».proof.Proof.Gen.Kernel.Points
import proofs.«152494_j86354612453593_2_alg».proof.Proof.Gen.Kernel.Frame
import proofs.«152494_j86354612453593_2_alg».proof.Proof.Gen.KernelIdeal
import proofs.«152494_j86354612453593_2_alg».proof.Proof.Gen.KernelIdeal.Skeleton
import proofs.«152494_j86354612453593_2_alg».proof.Proof.Gen.KernelIdeal.Launch
import proofs.«152494_j86354612453593_2_alg».proof.Proof.Gen.KernelIdeal.Points
import proofs.«152494_j86354612453593_2_alg».proof.Proof.Gen.KernelIdeal.Frame
import proofs.«152494_j86354612453593_2_alg».proof.Proof.Gen.ReferenceIdeal
import proofs.«152494_j86354612453593_2_alg».proof.Proof.RefRunP
import proofs.«152494_j86354612453593_2_alg».proof.Proof.Gen.Pre_finite_inputs
import proofs.«152494_j86354612453593_2_alg».proof.Proof.Spec
import proofs.«152494_j86354612453593_2_alg».proof.Proof.KernelRun
import proofs.«152494_j86354612453593_2_alg».proof.Proof.RefFolded
import proofs.«152494_j86354612453593_2_alg».proof.Proof.KernelResult
import Idealize.ShloMosaic.Adequacy
import Idealize.ShloMosaic.Init

noncomputable section

namespace Cert.Proof

open Idealize.ShloMosaic Idealize.SL.Sem Cert.Gcn

/-- The kernel as printed runs, and its arguments end unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped from the post. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the six arguments both programs end with the result array at the second layer of the
    aggregation of the first layer of those arguments. -/
theorem algebraic : Cert.algebraic_KernelIdeal_ReferenceIdeal := by
  intro m ρ m' ρ' _ hagree
  refine ⟨fun c => proj2 (Cert.ReferenceIdeal.Folded.mid (F := Ideal)
      (proj1 (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg1)))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.result_eq m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Folded.res_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
